-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S2x200000 : Shape := ⟨2, ![2, 200000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1x128 .f32) (main_arg10 : FVec F S1 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S1x128 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S2x200000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S1x128 .f32) (main_arg10 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S2x200000 : Shape := ⟨2, ![2, 200000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩
abbrev S20000x128 : Shape := ⟨2, ![20000, 128]⟩
abbrev S20000x1 : Shape := ⟨2, ![20000, 1]⟩
abbrev S128x1 : Shape := ⟨2, ![128, 1]⟩

abbrev nBuf : Space → Nat
  | .hbm => 85
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x128, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S1x200000, .i32⟩
  | .hbm, ⟨60, _⟩ => ⟨S200000, .i32⟩
  | .hbm, ⟨61, _⟩ => ⟨S1x200000, .i32⟩
  | .hbm, ⟨62, _⟩ => ⟨S200000, .i32⟩
  | .hbm, ⟨63, _⟩ => ⟨S_, .i32⟩
  | .hbm, ⟨64, _⟩ => ⟨S200000, .i32⟩
  | .hbm, ⟨65, _⟩ => ⟨S200000, .i1⟩
  | .hbm, ⟨66, _⟩ => ⟨S_, .i32⟩
  | .hbm, ⟨67, _⟩ => ⟨S200000, .i32⟩
  | .hbm, ⟨68, _⟩ => ⟨S200000, .i32⟩
  | .hbm, ⟨69, _⟩ => ⟨S200000, .i32⟩
  | .hbm, ⟨70, _⟩ => ⟨S200000x1, .i32⟩
  | .hbm, ⟨71, _⟩ => ⟨S200000x64, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000x64, .f32⟩
  | .hbm, ⟨81, _⟩ => ⟨S200000x128, .f32⟩
  | .hbm, ⟨82, _⟩ => ⟨S1x1, .f32⟩
  | .hbm, ⟨83, _⟩ => ⟨S200000x1, .f32⟩
  | .hbm, ⟨84, _⟩ => ⟨S200000, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S20000x128, .f32⟩
  | .local _ .vmem, ⟨19, _⟩ => ⟨S20000x128, .f32⟩
  | .local _ .vmem, ⟨20, _⟩ => ⟨S1x128, .f32⟩
  | .local _ .vmem, ⟨21, _⟩ => ⟨S1x1, .f32⟩
  | .local _ .vmem, ⟨22, _⟩ => ⟨S20000x1, .f32⟩
  | .local _ .vmem, ⟨23, _⟩ => ⟨S20000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  shapeCasts_S1_S1x1 : S1.ShapeCasts S1x1
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  shapeCasts_S200000x1_S200000 : S200000x1.ShapeCasts S200000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  gather_S100000x64_S200000x1_S200000x64_1_0_n_n_0_1_164_wf : GatherDims.WF S100000x64 S200000x1 S200000x64 [1] [0] [] [0] [] 1 ![1, 64]
  dot_S20000x128_S128x1_S20000x1_1_0_0_1_n_n_wf : DotDims.WF S20000x128 S128x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x128.size a ≤ S200000x128.size a
  hwx2_0 : ∀ i : grid2.Coords, EltTy.bits .f32 = 32 ∨ (Rect.block (s := S200000x128) S20000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x1.size a ≤ S200000x1.size a
  hwx2_3 : ∀ i : grid2.Coords, EltTy.bits .f32 = 32 ∨ (Rect.block (s := S200000x1) S20000x1.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S20000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S20000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S2x200000 : Shape := ⟨2, ![2, 200000]⟩
abbrev S64x64 : Shape := ⟨2, ![64, 64]⟩
abbrev S64 : Shape := ⟨1, ![64]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x128 : Shape := ⟨2, ![200000, 128]⟩
abbrev S128x1 : Shape := ⟨2, ![128, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S2x200000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x128, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S1x200000, .i32⟩
  | .hbm, ⟨88, _⟩ => ⟨S200000, .i32⟩
  | .hbm, ⟨89, _⟩ => ⟨S1x200000, .i32⟩
  | .hbm, ⟨90, _⟩ => ⟨S200000, .i32⟩
  | .hbm, ⟨91, _⟩ => ⟨S_, .i32⟩
  | .hbm, ⟨92, _⟩ => ⟨S200000, .i32⟩
  | .hbm, ⟨93, _⟩ => ⟨S200000, .i1⟩
  | .hbm, ⟨94, _⟩ => ⟨S_, .i32⟩
  | .hbm, ⟨95, _⟩ => ⟨S200000, .i32⟩
  | .hbm, ⟨96, _⟩ => ⟨S200000, .i32⟩
  | .hbm, ⟨97, _⟩ => ⟨S200000, .i32⟩
  | .hbm, ⟨98, _⟩ => ⟨S200000x1, .i32⟩
  | .hbm, ⟨99, _⟩ => ⟨S200000x64, .f32⟩
  | .hbm, ⟨100, _⟩ => ⟨S_, .i32⟩
  | .hbm, ⟨101, _⟩ => ⟨S200000, .i32⟩
  | .hbm, ⟨102, _⟩ => ⟨S200000, .i1⟩
  | .hbm, ⟨103, _⟩ => ⟨S_, .i32⟩
  | .hbm, ⟨104, _⟩ => ⟨S200000, .i32⟩
  | .hbm, ⟨105, _⟩ => ⟨S200000, .i32⟩
  | .hbm, ⟨106, _⟩ => ⟨S200000, .i32⟩
  | .hbm, ⟨107, _⟩ => ⟨S200000x1, .i32⟩
  | .hbm, ⟨108, _⟩ => ⟨S200000x64, .f32⟩
  | .hbm, ⟨109, _⟩ => ⟨S200000x128, .f32⟩
  | .hbm, ⟨110, _⟩ => ⟨S128x1, .f32⟩
  | .hbm, ⟨111, _⟩ => ⟨S200000x1, .f32⟩
  | .hbm, ⟨112, _⟩ => ⟨S1x1, .f32⟩
  | .hbm, ⟨113, _⟩ => ⟨S200000x1, .f32⟩
  | .hbm, ⟨114, _⟩ => ⟨S200000x1, .f32⟩
  | .hbm, ⟨115, _⟩ => ⟨S200000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_12 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x128_S128x1_S200000x1_1_0_0_1_n_n_wf : DotDims.WF S200000x128 S128x1 S200000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The idealized kernel's run with its RESULT named.

  @main is seven segments: a stretch of host operations, the first dense layer as a pipelined region, a second stretch, the
  second dense layer, a third stretch, the scorer region, and the final reshape. The buffers' contents at each boundary are
  the fold `W0 … W7` of the generated frame module: a stretch applies its operations to the contents before it, a region
  replaces its windows' arrays by what its write-backs leave. Every weakly fair execution terminates with every unscoped
  buffer at `W7`; the frame claim keeps only the arguments of that. Here the result buffer is kept too: after the run
  `main_v60` holds `W7` at `main_v60`, which the value modules then read back through the fold.
-/
import proofs.«117260_j50371376447640_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_out : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Run

end
-- ==== Proof.Spec.lean ====
/-
  The arithmetic the two programs share, one output entry at a time.

  A mean-aggregation graph layer sends node `r` to `relu (mean_r · Wlᵀ + b + x_r · Wrᵀ)`: entry `j` of the new feature
  row is `max (Σ_k mean_r[k] · Wl[j,k] + b[j] + Σ_k x_r[k] · Wr[j,k]) 0`, and depends on row `r` of the two node arrays
  only. The link scorer sends a pair's concatenated feature row `z` to `Σ_k z[k] · w[k] + b`. Both are stated here on the
  extended reals for one row (`denseRow`, `scoreRow`) and then for whole arrays (`denseArr`, `scoreArr`): the row-blocked
  kernel and the whole-array reference are both instances of the same row function, which is all the bridge needs.
  The zero of the rectifier is kept as the float word both programs print, never evaluated.
-/
import Idealize.ShloMosaic.PureOps.Ideal
import Idealize.ShloMosaic.Lib.ValueIdx

noncomputable section

open scoped BigOperators

namespace Cert.Sage

open Idealize.ShloMosaic Idealize.ShloMosaic.ValueIdx

/-- Entry `j` of a layer's output row: the rectified sum of the aggregated row through `Wl`, the bias, and the node's own
    row through `Wr` (both weight matrices used transposed: `W[j,k]`). -/
def denseRow (mrow xrow : Fin 64 → EReal) (Wl Wr : Fin 64 → Fin 64 → EReal) (b : Fin 64 → EReal) (j : Fin 64) : EReal :=
  max ((∑ k : Fin 64, mrow k * Wl j k) + b j + ∑ k : Fin 64, xrow k * Wr j k) (Ideal.ofBits .f32 0x00000000#32)

/-- A pair's score: its 128 concatenated features against the scorer's weights, plus the scorer's bias. -/
def scoreRow (zrow w : Fin 128 → EReal) (b : EReal) : EReal :=
  (∑ k : Fin 128, zrow k * w k) + b

/-- The layer over all 100000 nodes: entry `(r, j)` is `denseRow` of row `r` of the aggregated array and of the node
    array, the bias given as a `[1, 64]` row. -/
def denseArr (mean x : (⟨2, ![100000, 64]⟩ : Shape).Idx → EReal) (Wl Wr : (⟨2, ![64, 64]⟩ : Shape).Idx → EReal)
    (b : (⟨2, ![1, 64]⟩ : Shape).Idx → EReal) : (⟨2, ![100000, 64]⟩ : Shape).Idx → EReal :=
  fun i => denseRow (fun k => mean (ix2 (i 0) k)) (fun k => x (ix2 (i 0) k)) (fun j k => Wl (ix2 j k)) (fun j k => Wr (ix2 j k))
    (fun j => b (ix2 (0 : Fin 1) j)) (i 1)

/-- The scorer over all 200000 pairs, as a `[200000, 1]` column: entry `(r, 0)` is `scoreRow` of row `r`. -/
def scoreArr (z : (⟨2, ![200000, 128]⟩ : Shape).Idx → EReal) (w : (⟨2, ![1, 128]⟩ : Shape).Idx → EReal)
    (b : (⟨2, ![1, 1]⟩ : Shape).Idx → EReal) : (⟨2, ![200000, 1]⟩ : Shape).Idx → EReal :=
  fun i => scoreRow (fun k => z (ix2 (i 0) k)) (fun k => w (ix2 (0 : Fin 1) k)) (b (ix2 (0 : Fin 1) (0 : Fin 1)))

/-- `denseRow` depends on its rows, weights and bias only through their entries. -/
theorem denseRow_congr {m m' x x' : Fin 64 → EReal} {Wl Wl' Wr Wr' : Fin 64 → Fin 64 → EReal} {b b' : Fin 64 → EReal} {j j' : Fin 64}
    (hm : ∀ k, m k = m' k) (hx : ∀ k, x k = x' k) (hl : ∀ a k, Wl a k = Wl' a k) (hr : ∀ a k, Wr a k = Wr' a k)
    (hb : ∀ a, b a = b' a) (hj : j = j') : denseRow m x Wl Wr b j = denseRow m' x' Wl' Wr' b' j' := by
  obtain rfl : m = m' := funext hm
  obtain rfl : x = x' := funext hx
  obtain rfl : Wl = Wl' := funext fun a => funext (hl a)
  obtain rfl : Wr = Wr' := funext fun a => funext (hr a)
  obtain rfl : b = b' := funext hb
  subst hj; rfl

/-- `scoreRow` depends on its row and weights only through their entries. -/
theorem scoreRow_congr {z z' w w' : Fin 128 → EReal} {b b' : EReal} (hz : ∀ k, z k = z' k) (hw : ∀ k, w k = w' k) (hb : b = b') :
    scoreRow z w b = scoreRow z' w' b' := by
  obtain rfl : z = z' := funext hz
  obtain rfl : w = w' := funext hw
  subst hb; rfl

end Cert.Sage

end
-- ==== Proof.KernelBody.lean ====
/-
  The three kernel bodies read at one entry of their block, on the extended reals.

  A dense-layer body loads a block of 10000 rows of the aggregated array and of the node array, the two 64 × 64 weights and
  the bias row, and stores `max (mean · Wlᵀ + b + x · Wrᵀ) 0`. A change of float format is the identity here and a matrix
  product into a zero accumulator is the plain sum over the contracted axis, so entry `(p, q)` of the stored block is
  `denseRow` of row `p` of the two loaded blocks. The scorer's body loads 20000 rows of pair features, the weight row and
  the bias, and stores `z · wᵀ + b`: entry `(p, 0)` is `scoreRow` of row `p`.
-/
import proofs.«117260_j50371376447640_1_alg».proof.Proof.Gen.KernelIdeal.Skeleton
import proofs.«117260_j50371376447640_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Sage

/-! ## The contraction's operand indices, for the two matrix products -/

theorem d64_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem d64_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem d64_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem d64_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem d128_lhs0 (i : S20000x1.Idx) (q : dot_S20000x128_S128x1_S20000x1_1_0_0_1_n_n.contr.Idx) :
    (dot_S20000x128_S128x1_S20000x1_1_0_0_1_n_n.lhsIdx i q 0).val = (i 0).val := by
  unfold DotDims.lhsIdx
  rw [dif_neg (show ¬(0 : Fin S20000x128.rank) ∈ dot_S20000x128_S128x1_S20000x1_1_0_0_1_n_n.lhsBatch by decide), dif_pos (show (0 : Fin S20000x128.rank) ∈ dot_S20000x128_S128x1_S20000x1_1_0_0_1_n_n.lhsNonContracting by decide)]
  rfl
theorem d128_lhs1 (i : S20000x1.Idx) (q : dot_S20000x128_S128x1_S20000x1_1_0_0_1_n_n.contr.Idx) :
    (dot_S20000x128_S128x1_S20000x1_1_0_0_1_n_n.lhsIdx i q 1).val = (q ⟨0, by decide⟩).val :=
  dot_S20000x128_S128x1_S20000x1_1_0_0_1_n_n.lhsIdx_val_of_single rfl i q
theorem d128_rhs0 (i : S20000x1.Idx) (q : dot_S20000x128_S128x1_S20000x1_1_0_0_1_n_n.contr.Idx) :
    (dot_S20000x128_S128x1_S20000x1_1_0_0_1_n_n.rhsIdx i q 0).val = (q ⟨0, by decide⟩).val :=
  dot_S20000x128_S128x1_S20000x1_1_0_0_1_n_n.rhsIdx_val_of_single rfl i q
theorem d128_rhs1 (i : S20000x1.Idx) (q : dot_S20000x128_S128x1_S20000x1_1_0_0_1_n_n.contr.Idx) :
    (dot_S20000x128_S128x1_S20000x1_1_0_0_1_n_n.rhsIdx i q 1).val = (i 1).val := by
  unfold DotDims.rhsIdx
  rw [dif_neg (show ¬(1 : Fin S128x1.rank) ∈ dot_S20000x128_S128x1_S20000x1_1_0_0_1_n_n.rhsBatch by decide), dif_pos (show (1 : Fin S128x1.rank) ∈ dot_S20000x128_S128x1_S20000x1_1_0_0_1_n_n.rhsNonContracting by decide)]
  rfl

/-- A block of rows against a 64 × 64 matrix, into a zero accumulator: entry `(p, q)` is the sum over the 64 lanes. -/
theorem matmul64_apply (a : FVec Ideal S10000x64 .bf16) (w : FVec Ideal S64x64 .bf16) (p : Fin 10000) (q : Fin 64) :
    matmul (F := Ideal) dot_S10000x64_S64x64_S10000x64_1_0_0_1_n_n none a w (constant S10000x64 .f32 0x00000000#32) (ix2 p q)
      = ∑ k : Fin 64, a (ix2 p k) * w (ix2 k q) := by
  refine (Ideal.matmul_constant_zero_apply dot_S10000x64_S64x64_S10000x64_1_0_0_1_n_n none a w (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact d64_lhs0 _ _
    | ⟨1, _⟩ => exact (d64_lhs1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (d64_rhs0 _ _).trans hk
    | ⟨1, _⟩ => exact d64_rhs1 _ _)
  rw [el, er]

/-- A block of rows against a 128 × 1 column, into a zero accumulator: entry `(p, 0)` is the sum over the 128 lanes. -/
theorem matmul128_apply (a : FVec Ideal S20000x128 .bf16) (w : FVec Ideal S128x1 .bf16) (p : Fin 20000) (q : Fin 1) :
    matmul (F := Ideal) dot_S20000x128_S128x1_S20000x1_1_0_0_1_n_n none a w (constant S20000x1 .f32 0x00000000#32) (ix2 p q)
      = ∑ k : Fin 128, a (ix2 p k) * w (ix2 k q) := by
  refine (Ideal.matmul_constant_zero_apply dot_S20000x128_S128x1_S20000x1_1_0_0_1_n_n none a w (ix2 p q)).trans ?_
  rw [← Equiv.sum_comp (contrEquiv1 dot_S20000x128_S128x1_S20000x1_1_0_0_1_n_n 128 rfl rfl).symm]
  refine Finset.sum_congr rfl fun k _ => ?_
  have hk := contrEquiv1_symm_val dot_S20000x128_S128x1_S20000x1_1_0_0_1_n_n 128 rfl rfl k
  have el : dot_S20000x128_S128x1_S20000x1_1_0_0_1_n_n.lhsIdx (ix2 p q) ((contrEquiv1 dot_S20000x128_S128x1_S20000x1_1_0_0_1_n_n 128 rfl rfl).symm k) = ix2 p k := funext fun a => Fin.ext (by
    match a with
    | ⟨0, _⟩ => exact d128_lhs0 _ _
    | ⟨1, _⟩ => exact (d128_lhs1 _ _).trans hk)
  have er : dot_S20000x128_S128x1_S20000x1_1_0_0_1_n_n.rhsIdx (ix2 p q) ((contrEquiv1 dot_S20000x128_S128x1_S20000x1_1_0_0_1_n_n 128 rfl rfl).symm k) = ix2 k q := funext fun a => Fin.ext (by
    match a with
    | ⟨0, _⟩ => exact (d128_rhs0 _ _).trans hk
    | ⟨1, _⟩ => exact d128_rhs1 _ _)
  rw [el, er]

/-- The transposed weight at `(k, q)` is the weight at `(q, k)`. -/
theorem transpose64_apply (w : FVec Ideal S64x64 .bf16) (k q : Fin 64) :
    transpose S64x64 [1, 0] w transposes_S64x64_p1_0_S64x64 (ix2 k q) = w (ix2 q k) :=
  transpose_apply [1, 0] w transposes_S64x64_p1_0_S64x64 (ix2 k q) (ix2 q k) (fun b => match b with
    | ⟨0, _⟩ => rfl
    | ⟨1, _⟩ => rfl)

/-- The scorer's weight row transposed to a column: entry `(k, 0)` is the row's entry `(0, k)`. -/
theorem transpose128_apply (w : FVec Ideal S1x128 .bf16) (k : Fin 128) (q : Fin 1) :
    transpose S128x1 [1, 0] w transposes_S1x128_p1_0_S128x1 (ix2 k q) = w (ix2 (0 : Fin 1) k) :=
  transpose_apply [1, 0] w transposes_S1x128_p1_0_S128x1 (ix2 k q) (ix2 (0 : Fin 1) k) (fun b => match b with
    | ⟨0, _⟩ => rfl
    | ⟨1, _⟩ => (Fin.val_eq_zero q).symm ▸ rfl)

/-- The bias row spread over the block's rows: entry `(p, q)` is the row's entry `(0, q)`. -/
theorem biasRow_apply (b : FVec Ideal S1x64 .f32) (p : Fin 10000) (q : Fin 64) :
    broadcastTo S10000x64 (shapeCast S1x64 b shapeCasts_S1x64_S1x64) broadcasts_S1x64_S10000x64 (ix2 p q) = b (ix2 (0 : Fin 1) q) := by
  rw [shapeCast_self]
  exact broadcastTo_apply b broadcasts_S1x64_S10000x64 (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The scorer's bias spread over the block's rows: every entry is the bias. -/
theorem biasOne_apply (b : FVec Ideal S1x1 .f32) (p : Fin 20000) (q : Fin 1) :
    broadcastTo S20000x1 (shapeCast S1x1 b shapeCasts_S1x1_S1x1) broadcasts_S1x1_S20000x1 (ix2 p q) = b (ix2 (0 : Fin 1) (0 : Fin 1)) := by
  rw [shapeCast_self]
  exact broadcastTo_apply b broadcasts_S1x1_S20000x1 (ix2 p q) (ix2 (0 : Fin 1) (0 : Fin 1)) (fun a => match a with
    | ⟨0, _⟩ => by show (0 : Nat) = if (1 : Nat) = 1 then 0 else p.val; rw [if_pos rfl]
    | ⟨1, _⟩ => by show (0 : Nat) = if (1 : Nat) = 1 then 0 else q.val; rw [if_pos rfl])

/-- One dense product of the body: rows of a loaded block (narrowed for the matrix unit) against a loaded weight, narrowed
    and transposed. -/
theorem product64 (v : FVec Ideal S10000x64 .f32) (w : FVec Ideal S64x64 .f32) (p : Fin 10000) (q : Fin 64) :
    matmul (F := Ideal) dot_S10000x64_S64x64_S10000x64_1_0_0_1_n_n none (truncf .bf16 v bitsLt_bf16_f32)
        (transpose S64x64 [1, 0] (truncf .bf16 w bitsLt_bf16_f32) transposes_S64x64_p1_0_S64x64) (constant S10000x64 .f32 0x00000000#32) (ix2 p q)
      = ∑ k : Fin 64, v (ix2 p k) * w (ix2 q k) := by
  refine (matmul64_apply _ _ p q).trans ?_
  refine Finset.sum_congr rfl fun k _ => ?_
  rw [transpose64_apply]
  rfl

/-- The first layer's stored block at `(p, q)`. -/
theorem k0_pay1_apply (v0 v3 : Vec Ideal S10000x64 .f32) (v5 v7 : Vec Ideal S64x64 .f32) (v13 : Vec Ideal S1x64 .f32) (p : Fin 10000) (q : Fin 64) :
    k0_pay1 (F := Ideal) v0 v3 v5 v7 v13 (ix2 p q)
      = denseRow (fun k => v0 (ix2 p k)) (fun k => v3 (ix2 p k)) (fun j k => v5 (ix2 j k)) (fun j k => v7 (ix2 j k)) (fun j => v13 (ix2 (0 : Fin 1) j)) q := by
  unfold k0_pay1 denseRow
  refine (maximumf_apply _ _ _).trans (congrArg₂ max ?_ rfl)
  refine (addf_apply _ _ _).trans (congrArg₂ (· + ·) ((addf_apply _ _ _).trans (congrArg₂ (· + ·) ?_ ?_)) ?_)
  · rw [shapeCast_self]; exact product64 v0 v5 p q
  · exact biasRow_apply v13 p q
  · exact product64 v3 v7 p q

/-- The second layer's stored block at `(p, q)`. -/
theorem k1_pay1_apply (v0 v3 : Vec Ideal S10000x64 .f32) (v6 v8 : Vec Ideal S64x64 .f32) (v14 : Vec Ideal S1x64 .f32) (p : Fin 10000) (q : Fin 64) :
    k1_pay1 (F := Ideal) v0 v3 v6 v8 v14 (ix2 p q)
      = denseRow (fun k => v0 (ix2 p k)) (fun k => v3 (ix2 p k)) (fun j k => v6 (ix2 j k)) (fun j k => v8 (ix2 j k)) (fun j => v14 (ix2 (0 : Fin 1) j)) q := by
  unfold k1_pay1 denseRow
  refine (maximumf_apply _ _ _).trans (congrArg₂ max ?_ rfl)
  refine (addf_apply _ _ _).trans (congrArg₂ (· + ·) ((addf_apply _ _ _).trans (congrArg₂ (· + ·) ?_ ?_)) ?_)
  · rw [shapeCast_self]; exact product64 v0 v6 p q
  · exact biasRow_apply v14 p q
  · rw [shapeCast_self]; exact product64 v3 v8 p q

/-- The scorer's stored block at `(p, 0)`. -/
theorem k2_pay1_apply (v0 : Vec Ideal S20000x128 .f32) (v3 : Vec Ideal S1x128 .f32) (v7 : Vec Ideal S1x1 .f32) (p : Fin 20000) (q : Fin 1) :
    k2_pay1 (F := Ideal) v0 v3 v7 (ix2 p q)
      = scoreRow (fun k => v0 (ix2 p k)) (fun k => v3 (ix2 (0 : Fin 1) k)) (v7 (ix2 (0 : Fin 1) (0 : Fin 1))) := by
  unfold k2_pay1 scoreRow
  refine (addf_apply _ _ _).trans (congrArg₂ (· + ·) ?_ ?_)
  · rw [shapeCast_self]
    refine (matmul128_apply _ _ p q).trans ?_
    refine Finset.sum_congr rfl fun k _ => ?_
    rw [transpose128_apply]
    rfl
  · exact biasOne_apply v7 p q

end Cert.KernelIdeal.Body

end
-- ==== Proof.KernelArrays.lean ====
/-
  From blocks to arrays: what each region leaves in its output array, on the extended reals.

  A region runs its body at ten grid points; point `t` reads block `t` of the row-blocked inputs (10000 node rows, or 20000
  pair rows), the whole weights and bias, and writes back block `t` of the output. A row of the output depends on the same
  row of the inputs only, so the block a point writes is the restriction to its rows of ONE function of the whole arrays:
  `denseArr` for the two layers, `scoreArr` for the scorer. The ten blocks tile the output (row `r` belongs to point
  `r / 10000`, resp. `r / 20000`), so after the region the output array IS that function of the arrays the region found.
  Everything is stated at any entry contents `V`, to be used at each region's own.
-/
import proofs.«117260_j50371376447640_1_alg».proof.Proof.Gen.KernelIdeal.Frame
import proofs.«117260_j50371376447640_1_alg».proof.Proof.KernelBody
import proofs.«117260_j50371376447640_1_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Body Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Dense layer 1: region 0 -/

/-- The printed index maps over the 10 grid points: the two row-blocked inputs and the output sit at block `(t, 0)`, the
    weights and the bias at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the arrays as the region finds them: rows
    `10000 t … 10000 t + 9999`, each a function of the same row of the two node arrays. -/
theorem flushed0_eq (c : Dev nD) (t : Fin cfg0.N) :
    (dat0 V c).flushed 5 t = ((cfg0.win 5).blk t).view.read (Elt Ideal) (denseArr (V c main_v22) (V c main_arg0) (V c main_arg3) (V c main_arg5) (V c main_v23)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51⟩ := idx_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = denseArr (V c main_v22) (V c main_arg0) (V c main_arg3) (V c main_arg5) (V c main_v23) (((cfg0.win 5).blk t).view.emb (ix2 p q))
  refine (k0_pay1_apply (iblk0 V c 0 t) (iblk0 V c 1 t) (iblk0 V c 2 t) (iblk0 V c 3 t) (iblk0 V c 4 t) p q).trans ?_
  unfold denseArr
  refine denseRow_congr (fun k => ?_) (fun k => ?_) (fun a k => ?_) (fun a k => ?_) (fun k => ?_) ?_
  · show V c main_v22 (((cfg0.win 0).blk t).view.emb (ix2 p k)) = V c main_v22 _
    refine congrArg (V c main_v22) (funext fun d => Fin.ext ?_)
    match d with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · show V c main_arg0 (((cfg0.win 1).blk t).view.emb (ix2 p k)) = V c main_arg0 _
    refine congrArg (V c main_arg0) (funext fun d => Fin.ext ?_)
    match d with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · show V c main_arg3 (((cfg0.win 2).blk t).view.emb (ix2 a k)) = V c main_arg3 _
    refine congrArg (V c main_arg3) (funext fun d => Fin.ext ?_)
    match d with
    | ⟨0, _⟩ => show win0_2.index t (0 : Fin 2) * 64 + 1 * a.val = a.val; omega
    | ⟨1, _⟩ => show win0_2.index t (1 : Fin 2) * 64 + 1 * k.val = k.val; omega
  · show V c main_arg5 (((cfg0.win 3).blk t).view.emb (ix2 a k)) = V c main_arg5 _
    refine congrArg (V c main_arg5) (funext fun d => Fin.ext ?_)
    match d with
    | ⟨0, _⟩ => show win0_3.index t (0 : Fin 2) * 64 + 1 * a.val = a.val; omega
    | ⟨1, _⟩ => show win0_3.index t (1 : Fin 2) * 64 + 1 * k.val = k.val; omega
  · show V c main_v23 (((cfg0.win 4).blk t).view.emb (ix2 (0 : Fin 1) k)) = V c main_v23 _
    refine congrArg (V c main_v23) (funext fun d => Fin.ext ?_)
    match d with
    | ⟨0, _⟩ => show win0_4.index t (0 : Fin 2) * 1 + 1 * 0 = 0; omega
    | ⟨1, _⟩ => show win0_4.index t (1 : Fin 2) * 64 + 1 * k.val = k.val; omega
  · refine Fin.ext ?_
    show q.val = win0_5.index t (1 : Fin 2) * 64 + 1 * q.val
    omega

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v24).slice (win0_5.rect t)).set ↔ _
  rw [View.set_slice_whole, Rect.mem_set_unit]
  exact Iff.rfl

/-- Row `r` of the output is written by point `r / 10000`: the ten blocks cover the array. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, e50, e51⟩ := idx_facts0 t
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- After region 0 its output array is the dense layer of the arrays the region found. -/
theorem final0 (c : Dev nD) : (dat0 V c).arrAt 5 cfg0.N = denseArr (V c main_v22) (V c main_arg0) (V c main_arg3) (V c main_arg5) (V c main_v23) :=
  (dat0 V c).arrAt_eq_of_cover 5 _ (fun t _ => flushed0_eq V c t) cover0

/-! ## Dense layer 2: region 1 -/

/-- The printed index maps over the 10 grid points: the two row-blocked inputs and the output sit at block `(t, 0)`, the
    weights and the bias at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the arrays as the region finds them: rows
    `10000 t … 10000 t + 9999`, each a function of the same row of the two node arrays. -/
theorem flushed1_eq (c : Dev nD) (t : Fin cfg1.N) :
    (dat1 V c).flushed 5 t = ((cfg1.win 5).blk t).view.read (Elt Ideal) (denseArr (V c main_v36) (V c main_v24) (V c main_arg6) (V c main_arg8) (V c main_v37)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51⟩ := idx_facts1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = denseArr (V c main_v36) (V c main_v24) (V c main_arg6) (V c main_arg8) (V c main_v37) (((cfg1.win 5).blk t).view.emb (ix2 p q))
  refine (k1_pay1_apply (iblk1 V c 0 t) (iblk1 V c 1 t) (iblk1 V c 2 t) (iblk1 V c 3 t) (iblk1 V c 4 t) p q).trans ?_
  unfold denseArr
  refine denseRow_congr (fun k => ?_) (fun k => ?_) (fun a k => ?_) (fun a k => ?_) (fun k => ?_) ?_
  · show V c main_v36 (((cfg1.win 0).blk t).view.emb (ix2 p k)) = V c main_v36 _
    refine congrArg (V c main_v36) (funext fun d => Fin.ext ?_)
    match d with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  · show V c main_v24 (((cfg1.win 1).blk t).view.emb (ix2 p k)) = V c main_v24 _
    refine congrArg (V c main_v24) (funext fun d => Fin.ext ?_)
    match d with
    | ⟨0, _⟩ => show win1_1.index t (0 : Fin 2) * 10000 + 1 * p.val = win1_5.index t (0 : Fin 2) * 10000 + 1 * p.val; omega
    | ⟨1, _⟩ => show win1_1.index t (1 : Fin 2) * 64 + 1 * k.val = k.val; omega
  · show V c main_arg6 (((cfg1.win 2).blk t).view.emb (ix2 a k)) = V c main_arg6 _
    refine congrArg (V c main_arg6) (funext fun d => Fin.ext ?_)
    match d with
    | ⟨0, _⟩ => show win1_2.index t (0 : Fin 2) * 64 + 1 * a.val = a.val; omega
    | ⟨1, _⟩ => show win1_2.index t (1 : Fin 2) * 64 + 1 * k.val = k.val; omega
  · show V c main_arg8 (((cfg1.win 3).blk t).view.emb (ix2 a k)) = V c main_arg8 _
    refine congrArg (V c main_arg8) (funext fun d => Fin.ext ?_)
    match d with
    | ⟨0, _⟩ => show win1_3.index t (0 : Fin 2) * 64 + 1 * a.val = a.val; omega
    | ⟨1, _⟩ => show win1_3.index t (1 : Fin 2) * 64 + 1 * k.val = k.val; omega
  · show V c main_v37 (((cfg1.win 4).blk t).view.emb (ix2 (0 : Fin 1) k)) = V c main_v37 _
    refine congrArg (V c main_v37) (funext fun d => Fin.ext ?_)
    match d with
    | ⟨0, _⟩ => show win1_4.index t (0 : Fin 2) * 1 + 1 * 0 = 0; omega
    | ⟨1, _⟩ => show win1_4.index t (1 : Fin 2) * 64 + 1 * k.val = k.val; omega
  · refine Fin.ext ?_
    show q.val = win1_5.index t (1 : Fin 2) * 64 + 1 * q.val
    omega

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v38).slice (win1_5.rect t)).set ↔ _
  rw [View.set_slice_whole, Rect.mem_set_unit]
  exact Iff.rfl

/-- Row `r` of the output is written by point `r / 10000`: the ten blocks cover the array. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, -, -, e50, e51⟩ := idx_facts1 t
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- After region 1 its output array is the dense layer of the arrays the region found. -/
theorem final1 (c : Dev nD) : (dat1 V c).arrAt 5 cfg1.N = denseArr (V c main_v36) (V c main_v24) (V c main_arg6) (V c main_arg8) (V c main_v37) :=
  (dat1 V c).arrAt_eq_of_cover 5 _ (fun t _ => flushed1_eq V c t) cover1

/-! ## The scorer: region 2 -/

/-- The printed index maps over the 10 grid points: the pair rows and the output column sit at block `(t, 0)`, the weight
    row and the bias at block `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the scorer of the arrays as the region finds them: rows
    `20000 t … 20000 t + 19999`, each the score of the same row of the pair array. -/
theorem flushed2_eq (c : Dev nD) (t : Fin cfg2.N) :
    (dat2 V c).flushed 3 t = ((cfg2.win 3).blk t).view.read (Elt Ideal) (scoreArr (V c main_v57) (V c main_arg9) (V c main_v58)) := by
  show (cfg2.win 3).cut (grid2.coords t) ((dat2 V c).after 3 t) = _
  rw [after2_3]
  unfold out2_3
  rw [View.canon_unit_zero hz]
  simp only [View.ld_unit_zero (S := S20000x128) hz, View.ld_unit_zero (S := S1x128) hz, View.ld_unit_zero (S := S1x1) hz]
  obtain ⟨e00, e01, e10, e11, e20, e21, e30, e31⟩ := idx_facts2 t
  funext j
  obtain ⟨p, q, rfl⟩ : ∃ (p : Fin 20000) (q : Fin 1), j = ix2 p q := ⟨j 0, j 1, eq_ix2 j⟩
  show k2_pay1 (F := Ideal) (iblk2 V c 0 t) (iblk2 V c 1 t) (iblk2 V c 2 t) (ix2 p q)
      = scoreArr (V c main_v57) (V c main_arg9) (V c main_v58) (((cfg2.win 3).blk t).view.emb (ix2 p q))
  refine (k2_pay1_apply (iblk2 V c 0 t) (iblk2 V c 1 t) (iblk2 V c 2 t) p q).trans ?_
  unfold scoreArr
  refine scoreRow_congr (fun k => ?_) (fun k => ?_) ?_
  · show V c main_v57 (((cfg2.win 0).blk t).view.emb (ix2 p k)) = V c main_v57 _
    refine congrArg (V c main_v57) (funext fun d => Fin.ext ?_)
    match d with
    | ⟨0, _⟩ => show win2_0.index t (0 : Fin 2) * 20000 + 1 * p.val = win2_3.index t (0 : Fin 2) * 20000 + 1 * p.val; omega
    | ⟨1, _⟩ => show win2_0.index t (1 : Fin 2) * 128 + 1 * k.val = k.val; omega
  · show V c main_arg9 (((cfg2.win 1).blk t).view.emb (ix2 (0 : Fin 1) k)) = V c main_arg9 _
    refine congrArg (V c main_arg9) (funext fun d => Fin.ext ?_)
    match d with
    | ⟨0, _⟩ => show win2_1.index t (0 : Fin 2) * 1 + 1 * 0 = 0; omega
    | ⟨1, _⟩ => show win2_1.index t (1 : Fin 2) * 128 + 1 * k.val = k.val; omega
  · show V c main_v58 (((cfg2.win 2).blk t).view.emb (ix2 (0 : Fin 1) (0 : Fin 1))) = V c main_v58 _
    refine congrArg (V c main_v58) (funext fun d => Fin.ext ?_)
    match d with
    | ⟨0, _⟩ => show win2_2.index t (0 : Fin 2) * 1 + 1 * 0 = 0; omega
    | ⟨1, _⟩ => show win2_2.index t (1 : Fin 2) * 1 + 1 * 0 = 0; omega

/-- An index of the output column is in point `t`'s block iff each coordinate is in the block's range on its axis. -/
theorem mem_blk2 (t : Fin cfg2.N) (i : S200000x1.Idx) :
    i ∈ ((cfg2.win 3).blk t).view.set ↔ ∀ a : Fin 2, win2_3.index t a * S20000x1.size a ≤ (i a).val ∧ (i a).val < win2_3.index t a * S20000x1.size a + S20000x1.size a := by
  show i ∈ ((View.whole main_v59).slice (win2_3.rect t)).set ↔ _
  rw [View.set_slice_whole, Rect.mem_set_unit]
  exact Iff.rfl

/-- Row `r` of the output is written by point `r / 20000`: the ten blocks cover the column. -/
theorem cover2 (i : S200000x1.Idx) : ∃ t : Fin cfg2.N, (cfg2.win 3).flush t = true ∧ i ∈ ((cfg2.win 3).blk t).view.set := by
  have hi0 : (i 0).val < 200000 := (i 0).isLt
  have hi1 : (i 1).val < 1 := (i 1).isLt
  have hN : cfg2.N = 10 := N_2
  obtain ⟨t, ht⟩ : ∃ t : Fin cfg2.N, t.val = (i 0).val / 20000 := ⟨⟨(i 0).val / 20000, by rw [hN]; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 20000 ≤ (i 0).val ∧ (i 0).val < win2_3.index t (0 : Fin 2) * 20000 + 20000; omega
  | ⟨1, _⟩ => show win2_3.index t (1 : Fin 2) * 1 ≤ (i 1).val ∧ (i 1).val < win2_3.index t (1 : Fin 2) * 1 + 1; omega

/-- After region 2 its output column is the scorer of the arrays the region found. -/
theorem final2 (c : Dev nD) : (dat2 V c).arrAt 3 cfg2.N = scoreArr (V c main_v57) (V c main_arg9) (V c main_v58) :=
  (dat2 V c).arrAt_eq_of_cover 3 _ (fun t _ => flushed2_eq V c t) cover2

end Cert.KernelIdeal.Arrays

end
-- ==== Proof.RefShape.lean ====
/-
  The reference's result as a composition of four named functions.

  The reference computes, for node features `x`, edges `e = (src, dst)` and label pairs `l = (s, d)`:
  `h1 = layer (mean x e) x`, `h2 = layer (mean h1 e) h1`, and the score of each pair from the concatenated rows
  `h2[s] ‖ h2[d]`. Here `meanOf h e` is the mean over incoming edges — the rows `h[src]` gathered (a negative index
  wrapped by the node count first), summed into their `dst` rows, divided by `max (in-degree) 1` —, `layerRef` the dense
  layer `relu (mean · Wlᵀ + b + x · Wrᵀ)`, `pairsOf` the two gathers and their concatenation, and `scoreRef` the scorer
  `z · wᵀ + b`. The gathers and scatter-adds are never opened: the kernel applies the same host operations, so they are
  carried on both sides as these functions of their operands.
-/
import proofs.«117260_j50371376447640_1_alg».proof.Proof.Gen.ReferenceIdeal.Run

set_option maxRecDepth 16384

noncomputable section

namespace Cert.ReferenceIdeal.Shape

open Cert.ReferenceIdeal Cert.ReferenceIdeal.Gen Idealize.ShloMosaic Idealize.ShloMosaic.TcCoe Idealize.SL.Sem

variable {F : FTy → Type} [FloatOps F]

/-- The mean of `h`'s rows over each node's incoming edges: gather the source rows, scatter-add them at the destination
    rows, divide by the in-degree (at least one). -/
def meanOf (h : (⟨S100000x64, .f32⟩ : BufTy).Contents (Elt F)) (e : (⟨S2x1600000, .i32⟩ : BufTy).Contents (Elt F)) : (⟨S100000x64, .f32⟩ : BufTy).Contents (Elt F) :=
  (Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x64_S1600000x1_S1600000x64_1_0_n_n_0_1_164 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32))))))

/-- The dense layer on whole arrays: `relu (mean · Wlᵀ + b + x · Wrᵀ)`. -/
def layerRef (mean x : (⟨S100000x64, .f32⟩ : BufTy).Contents (Elt F)) (Wl : (⟨S64x64, .f32⟩ : BufTy).Contents (Elt F)) (b : (⟨S64, .f32⟩ : BufTy).Contents (Elt F)) (Wr : (⟨S64x64, .f32⟩ : BufTy).Contents (Elt F)) : (⟨S100000x64, .f32⟩ : BufTy).Contents (Elt F) :=
  (maximumf (addf (addf (Host.dotGeneral dot_S100000x64_S64x64_S100000x64_1_0_0_1_n_n none mean (transpose S64x64 [1, 0] Wl transposes_S64x64_S64x64_1_0)) (broadcastInDim S100000x64 ![0, 1] bcast_S1x64_S100000x64_0_1 (broadcastInDim S1x64 ![1] bcast_S64_S1x64_1 b))) (Host.dotGeneral dot_S100000x64_S64x64_S100000x64_1_0_0_1_n_n none x (transpose S64x64 [1, 0] Wr transposes_S64x64_S64x64_1_0))) (broadcastInDim S100000x64 ![] bcast_S_S100000x64 (constant S_ .f32 0x00000000#32)))

/-- Each label pair's two feature rows, side by side. -/
def pairsOf (h : (⟨S100000x64, .f32⟩ : BufTy).Contents (Elt F)) (l : (⟨S2x200000, .i32⟩ : BufTy).Contents (Elt F)) : (⟨S200000x128, .f32⟩ : BufTy).Contents (Elt F) :=
  (concatenate S200000x128 1 [⟨S200000x64, (Host.gather gather_S100000x64_S200000x1_S200000x64_1_0_n_n_0_1_164 h (broadcastInDim S200000x1 ![0] bcast_S200000_S200000x1_0 (select (cmpi .slt (shapeCast _ (extractStridedSlice S1x200000 ![0, 0] l slices_S2x200000_S1x200000_0_0) shapeCasts_S1x200000_S200000) (broadcastInDim S200000 ![] bcast_S_S200000 (constantI S_ 32 0#32))) (addi (shapeCast _ (extractStridedSlice S1x200000 ![0, 0] l slices_S2x200000_S1x200000_0_0) shapeCasts_S1x200000_S200000) (broadcastInDim S200000 ![] bcast_S_S200000 (constantI S_ 32 100000#32))) (shapeCast _ (extractStridedSlice S1x200000 ![0, 0] l slices_S2x200000_S1x200000_0_0) shapeCasts_S1x200000_S200000))))⟩, ⟨S200000x64, (Host.gather gather_S100000x64_S200000x1_S200000x64_1_0_n_n_0_1_164 h (broadcastInDim S200000x1 ![0] bcast_S200000_S200000x1_0 (select (cmpi .slt (shapeCast _ (extractStridedSlice S1x200000 ![1, 0] l slices_S2x200000_S1x200000_1_0) shapeCasts_S1x200000_S200000) (broadcastInDim S200000 ![] bcast_S_S200000 (constantI S_ 32 0#32))) (addi (shapeCast _ (extractStridedSlice S1x200000 ![1, 0] l slices_S2x200000_S1x200000_1_0) shapeCasts_S1x200000_S200000) (broadcastInDim S200000 ![] bcast_S_S200000 (constantI S_ 32 100000#32))) (shapeCast _ (extractStridedSlice S1x200000 ![1, 0] l slices_S2x200000_S1x200000_1_0) shapeCasts_S1x200000_S200000))))⟩] concatenates_S200000x64_S200000x64_S200000x128_d1)

/-- The scorer on whole arrays: `z · wᵀ + b`, a column. -/
def scoreRef (z : (⟨S200000x128, .f32⟩ : BufTy).Contents (Elt F)) (w : (⟨S1x128, .f32⟩ : BufTy).Contents (Elt F)) (bs : (⟨S1, .f32⟩ : BufTy).Contents (Elt F)) : (⟨S200000x1, .f32⟩ : BufTy).Contents (Elt F) :=
  (addf (Host.dotGeneral dot_S200000x128_S128x1_S200000x1_1_0_0_1_n_n none z (transpose S128x1 [1, 0] w transposes_S1x128_S128x1_1_0)) (broadcastInDim S200000x1 ![0, 1] bcast_S1x1_S200000x1_0_1 (broadcastInDim S1x1 ![1] bcast_S1_S1x1_1 bs)))

/-- The reference's two layers and scorer, composed, as a function of the eleven arguments. -/
def refOut (x : (⟨S100000x64, .f32⟩ : BufTy).Contents (Elt F)) (e : (⟨S2x1600000, .i32⟩ : BufTy).Contents (Elt F)) (l : (⟨S2x200000, .i32⟩ : BufTy).Contents (Elt F))
    (Wl1 : (⟨S64x64, .f32⟩ : BufTy).Contents (Elt F)) (bl1 : (⟨S64, .f32⟩ : BufTy).Contents (Elt F)) (Wr1 Wl2 : (⟨S64x64, .f32⟩ : BufTy).Contents (Elt F)) (bl2 : (⟨S64, .f32⟩ : BufTy).Contents (Elt F)) (Wr2 : (⟨S64x64, .f32⟩ : BufTy).Contents (Elt F))
    (Ws : (⟨S1x128, .f32⟩ : BufTy).Contents (Elt F)) (bs : (⟨S1, .f32⟩ : BufTy).Contents (Elt F)) : (⟨S200000, .f32⟩ : BufTy).Contents (Elt F) :=
  shapeCast _ (scoreRef (pairsOf (layerRef (meanOf (layerRef (meanOf x e) x Wl1 bl1 Wr1) e) (layerRef (meanOf x e) x Wl1 bl1 Wr1) Wl2 bl2 Wr2) l) Ws bs) shapeCasts_S200000x1_S200000

/-- The generated run's result term is that composition of the launch contents of the arguments. -/
theorem res_eq (m : (ℓ : Loc nD τ sig) → Buf (Elt F) ℓ) (c : Dev nD) :
    Value.res_main_v84 (F := F) m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) := by
  unfold Value.res_main_v84 refOut scoreRef pairsOf layerRef meanOf
  rfl

end Cert.ReferenceIdeal.Shape

end
-- ==== Proof.KernelHost.lean ====
/-
  The host stretches of the idealized kernel, read back: what each region finds, and the result.

  The first stretch computes the mean aggregation of the node features and reshapes the first bias to a row; region 0
  then finds exactly the operands of the first dense layer. The second stretch aggregates region 0's output with the same
  edge lists and in-degrees — values the first stretch left in buffers no region touches, so they are read through the
  region's boundary unchanged — and the third gathers and concatenates the label pairs' rows of region 1's output. The
  last operation reshapes the scorer's column to a vector. The aggregation and the pair gather are the reference's own
  operations on the same operands, so each boundary's contents are stated with the shared functions `meanOf` and
  `pairsOf`, never opened.
-/
import proofs.«117260_j50371376447640_1_alg».proof.Proof.Gen.KernelIdeal.Frame
import proofs.«117260_j50371376447640_1_alg».proof.Proof.RefShape
import Idealize.ShloMosaic.Lib.StableHlo.Run
import Idealize.ShloMosaic.PureOps.Ideal

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's entry: after the first stretch -/

set_option maxHeartbeats 1000000 in
theorem V1_v22 : V1 m ρ c main_v22 = Cert.ReferenceIdeal.Shape.meanOf (F := Ideal) (m ((c.tc : Thread nD τ).loc main_arg0)) (m ((c.tc : Thread nD τ).loc main_arg1)) := by
  show StableHlo.after hostOps0 (W0 m ρ c) (Proc.devRef .tc main_v22) = _
  after_results_simp
  all_goals (unfold Cert.ReferenceIdeal.Shape.meanOf; rfl)

set_option maxHeartbeats 1000000 in
theorem V1_arg0 : V1 m ρ c main_arg0 = (m ((c.tc : Thread nD τ).loc main_arg0)) := by
  show StableHlo.after hostOps0 (W0 m ρ c) (Proc.devRef .tc main_arg0) = _
  after_results_simp
  all_goals rfl

set_option maxHeartbeats 1000000 in
theorem V1_arg3 : V1 m ρ c main_arg3 = (m ((c.tc : Thread nD τ).loc main_arg3)) := by
  show StableHlo.after hostOps0 (W0 m ρ c) (Proc.devRef .tc main_arg3) = _
  after_results_simp
  all_goals rfl

set_option maxHeartbeats 1000000 in
theorem V1_arg5 : V1 m ρ c main_arg5 = (m ((c.tc : Thread nD τ).loc main_arg5)) := by
  show StableHlo.after hostOps0 (W0 m ρ c) (Proc.devRef .tc main_arg5) = _
  after_results_simp
  all_goals rfl

set_option maxHeartbeats 1000000 in
theorem V1_v23 : V1 m ρ c main_v23 = shapeCast S1x64 (m ((c.tc : Thread nD τ).loc main_arg4)) shapeCasts_S64_S1x64 := by
  show StableHlo.after hostOps0 (W0 m ρ c) (Proc.devRef .tc main_v23) = _
  after_results_simp
  all_goals rfl

/-! ## Region 1's entry: after the second stretch, over region 0's exit -/

set_option maxHeartbeats 1000000 in
theorem V3_v36 : V3 m ρ c main_v36 = Cert.ReferenceIdeal.Shape.meanOf (F := Ideal) (V2 m ρ c main_v24) (m ((c.tc : Thread nD τ).loc main_arg1)) := by
  show StableHlo.after hostOps1 (W2 m ρ c) (Proc.devRef .tc main_v36) = _
  after_results_simp
  rw [W2_of_ne m ρ c main_v1 (by decide), W2_of_ne m ρ c main_v3 (by decide), W2_of_ne m ρ c main_v10 (by decide)]
  dsimp only [W1]
  after_results_simp
  all_goals (unfold Cert.ReferenceIdeal.Shape.meanOf; rfl)

set_option maxHeartbeats 1000000 in
theorem V3_v24 : V3 m ρ c main_v24 = V2 m ρ c main_v24 := by
  show StableHlo.after hostOps1 (W2 m ρ c) (Proc.devRef .tc main_v24) = _
  after_results_simp
  all_goals rfl

set_option maxHeartbeats 1000000 in
theorem V3_arg6 : V3 m ρ c main_arg6 = (m ((c.tc : Thread nD τ).loc main_arg6)) := by
  show StableHlo.after hostOps1 (W2 m ρ c) (Proc.devRef .tc main_arg6) = _
  after_results_simp
  try (rw [W2_of_ne m ρ c main_arg6 (by decide)]; dsimp only [W1]; try after_results_simp)
  all_goals rfl

set_option maxHeartbeats 1000000 in
theorem V3_arg8 : V3 m ρ c main_arg8 = (m ((c.tc : Thread nD τ).loc main_arg8)) := by
  show StableHlo.after hostOps1 (W2 m ρ c) (Proc.devRef .tc main_arg8) = _
  after_results_simp
  try (rw [W2_of_ne m ρ c main_arg8 (by decide)]; dsimp only [W1]; try after_results_simp)
  all_goals rfl

set_option maxHeartbeats 1000000 in
theorem V3_v37 : V3 m ρ c main_v37 = shapeCast S1x64 (m ((c.tc : Thread nD τ).loc main_arg7)) shapeCasts_S64_S1x64 := by
  show StableHlo.after hostOps1 (W2 m ρ c) (Proc.devRef .tc main_v37) = _
  after_results_simp
  try (rw [W2_of_ne m ρ c main_arg7 (by decide)]; dsimp only [W1]; try after_results_simp)
  all_goals rfl

/-! ## Region 2's entry: after the third stretch, over region 1's exit -/

set_option maxHeartbeats 1000000 in
/-- The label-pair index array is an argument: it passes both region boundaries unchanged. -/
theorem W4_arg2 : W4 m ρ c (Proc.devRef .tc main_arg2) = (m ((c.tc : Thread nD τ).loc main_arg2)) := by
  rw [W4_of_ne m ρ c main_arg2 (by decide)]
  show StableHlo.after hostOps1 (W2 m ρ c) (Proc.devRef .tc main_arg2) = _
  after_results_simp
  try (rw [W2_of_ne m ρ c main_arg2 (by decide)]; dsimp only [W1]; try after_results_simp)
  all_goals rfl

set_option maxHeartbeats 1000000 in
theorem V5_v57 : V5 m ρ c main_v57 = Cert.ReferenceIdeal.Shape.pairsOf (F := Ideal) (V4 m ρ c main_v38) (m ((c.tc : Thread nD τ).loc main_arg2)) := by
  show StableHlo.after hostOps2 (W4 m ρ c) (Proc.devRef .tc main_v57) = _
  after_results_simp
  unfold Cert.ReferenceIdeal.Shape.pairsOf
  refine congrArg₂ (fun a b => concatenate S200000x128 1 [⟨S200000x64, a⟩, ⟨S200000x64, b⟩] concatenates_S200000x64_S200000x64_S200000x128_d1) ?_ ?_
  · after_results_simp
    rw [W4_arg2]
    rfl
  · after_results_simp
    rw [W4_arg2]
    rfl

set_option maxHeartbeats 1000000 in
theorem V5_arg9 : V5 m ρ c main_arg9 = (m ((c.tc : Thread nD τ).loc main_arg9)) := by
  show StableHlo.after hostOps2 (W4 m ρ c) (Proc.devRef .tc main_arg9) = _
  after_results_simp
  try (rw [W4_of_ne m ρ c main_arg9 (by decide)]; dsimp only [W3]; try after_results_simp)
  try (rw [W2_of_ne m ρ c main_arg9 (by decide)]; dsimp only [W1]; try after_results_simp)
  all_goals rfl

set_option maxHeartbeats 1000000 in
theorem V5_v58 : V5 m ρ c main_v58 = shapeCast S1x1 (m ((c.tc : Thread nD τ).loc main_arg10)) shapeCasts_S1_S1x1 := by
  show StableHlo.after hostOps2 (W4 m ρ c) (Proc.devRef .tc main_v58) = _
  after_results_simp
  try (rw [W4_of_ne m ρ c main_arg10 (by decide)]; dsimp only [W3]; try after_results_simp)
  try (rw [W2_of_ne m ρ c main_arg10 (by decide)]; dsimp only [W1]; try after_results_simp)
  all_goals rfl

/-! ## The result: the last reshape, over region 2's exit -/

set_option maxHeartbeats 1000000 in
theorem W7_v60 : W7 m ρ c (Proc.devRef .tc main_v60) = shapeCast S200000 (V6 m ρ c main_v59) shapeCasts_S200000x1_S200000 := by
  show StableHlo.after hostOps3 (W6 m ρ c) (Proc.devRef .tc main_v60) = _
  after_results_simp
  all_goals rfl

end Cert.KernelIdeal.HostRead

end
-- ==== Proof.RefLayer.lean ====
/-
  The reference's dense layer and scorer, read at one entry.

  On the extended reals the host's `dot_general` is the plain sum over the contracted axis, a transposed weight read at
  `(k, j)` is the weight at `(j, k)`, the bias broadcast reads the bias at the column, and `relu` is the maximum with the
  zero word. So entry `(r, j)` of `layerRef mean x Wl b Wr` is `denseRow` of row `r` of `mean` and of `x`, and entry `(r, 0)`
  of `scoreRef z w b` is `scoreRow` of row `r` of `z`: as whole arrays they are `denseArr` and `scoreArr` (the kernel's forms,
  whose bias arrives reshaped to a row).
-/
import proofs.«117260_j50371376447640_1_alg».proof.Proof.RefShape
import proofs.«117260_j50371376447640_1_alg».proof.Proof.Gen.ReferenceIdeal.Read
import proofs.«117260_j50371376447640_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Layer

open Cert.ReferenceIdeal Cert.ReferenceIdeal.Gen Cert.ReferenceIdeal.Shape Cert.ReferenceIdeal.Read Idealize.ShloMosaic Idealize.ShloMosaic.ValueIdx Cert.Sage

/-- The host's product of an array's rows with a 64 × 64 matrix: entry `(r, j)` is the sum over the 64 lanes. -/
theorem dot64_apply (a : FVec Ideal S100000x64 .f32) (w : FVec Ideal S64x64 .f32) (r : Fin 100000) (j : Fin 64) :
    Host.dotGeneral (F := Ideal) dot_S100000x64_S64x64_S100000x64_1_0_0_1_n_n none a w (ix2 r j) = ∑ k : Fin 64, a (ix2 r k) * w (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact lhs_main_v24_0 _ _
    | ⟨1, _⟩ => exact (lhs_main_v24_1 _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (rhs_main_v24_0 _ _).trans hk
    | ⟨1, _⟩ => exact rhs_main_v24_1 _ _)
  rw [el, er]

/-- The host's product of the pair rows with a 128 × 1 column: entry `(r, 0)` is the sum over the 128 lanes. -/
theorem dot128_apply (a : FVec Ideal S200000x128 .f32) (w : FVec Ideal S128x1 .f32) (r : Fin 200000) (q : Fin 1) :
    Host.dotGeneral (F := Ideal) dot_S200000x128_S128x1_S200000x1_1_0_0_1_n_n none a w (ix2 r q) = ∑ k : Fin 128, a (ix2 r k) * w (ix2 k q) := by
  simp only [Host.dotGeneral]
  rw [Ideal.dotGeneral_apply, ← Equiv.sum_comp (contrEquiv1 dot_S200000x128_S128x1_S200000x1_1_0_0_1_n_n 128 rfl rfl).symm]
  refine Finset.sum_congr rfl fun k _ => ?_
  have hk := contrEquiv1_symm_val dot_S200000x128_S128x1_S200000x1_1_0_0_1_n_n 128 rfl rfl k
  have el : dot_S200000x128_S128x1_S200000x1_1_0_0_1_n_n.lhsIdx (ix2 r q) ((contrEquiv1 dot_S200000x128_S128x1_S200000x1_1_0_0_1_n_n 128 rfl rfl).symm k) = ix2 r k := funext fun a => Fin.ext (by
    match a with
    | ⟨0, _⟩ => exact lhs_main_v80_0 _ _
    | ⟨1, _⟩ => exact (lhs_main_v80_1 _ _).trans hk)
  have er : dot_S200000x128_S128x1_S200000x1_1_0_0_1_n_n.rhsIdx (ix2 r q) ((contrEquiv1 dot_S200000x128_S128x1_S200000x1_1_0_0_1_n_n 128 rfl rfl).symm k) = ix2 k q := funext fun a => Fin.ext (by
    match a with
    | ⟨0, _⟩ => exact (rhs_main_v80_0 _ _).trans hk
    | ⟨1, _⟩ => exact rhs_main_v80_1 _ _)
  rw [el, er]

/-- The transposed weight at `(k, j)` is the weight at `(j, k)`. -/
theorem transpose64_apply (w : (⟨S64x64, .f32⟩ : BufTy).Contents (Elt Ideal)) (k j : Fin 64) :
    transpose S64x64 [1, 0] w transposes_S64x64_S64x64_1_0 (ix2 k j) = w (ix2 j k) :=
  transpose_apply [1, 0] w transposes_S64x64_S64x64_1_0 (ix2 k j) (ix2 j k) (fun b => match b with
    | ⟨0, _⟩ => rfl
    | ⟨1, _⟩ => rfl)

/-- The scorer's weight row as a column: entry `(k, 0)` is the row's entry `(0, k)`. -/
theorem transpose128_apply (w : (⟨S1x128, .f32⟩ : BufTy).Contents (Elt Ideal)) (k : Fin 128) (q : Fin 1) :
    transpose S128x1 [1, 0] w transposes_S1x128_S128x1_1_0 (ix2 k q) = w (ix2 (0 : Fin 1) k) :=
  transpose_apply [1, 0] w transposes_S1x128_S128x1_1_0 (ix2 k q) (ix2 (0 : Fin 1) k) (fun b => match b with
    | ⟨0, _⟩ => rfl
    | ⟨1, _⟩ => (Fin.val_eq_zero q).symm ▸ rfl)

/-- The bias spread over all rows: entry `(r, j)` is the bias at `j`. -/
theorem bias64_apply (b : (⟨S64, .f32⟩ : BufTy).Contents (Elt Ideal)) (r : Fin 100000) (j : Fin 64) :
    broadcastInDim S100000x64 ![0, 1] bcast_S1x64_S100000x64_0_1 (broadcastInDim S1x64 ![1] bcast_S64_S1x64_1 b) (ix2 r j) = b (ix1 j) := by
  refine (broadcastInDim_apply _ bcast_S1x64_S100000x64_0_1 _ (ix2 r j) (ix2 (0 : Fin 1) j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-- The scorer's bias spread over all rows: every entry is the bias. -/
theorem bias1_apply (b : (⟨S1, .f32⟩ : BufTy).Contents (Elt Ideal)) (r : Fin 200000) (q : Fin 1) :
    broadcastInDim S200000x1 ![0, 1] bcast_S1x1_S200000x1_0_1 (broadcastInDim S1x1 ![1] bcast_S1_S1x1_1 b) (ix2 r q) = b (ix1 (0 : Fin 1)) := by
  refine (broadcastInDim_apply _ bcast_S1x1_S200000x1_0_1 _ (ix2 r q) (ix2 (0 : Fin 1) (0 : Fin 1)) (fun a => match a with
    | ⟨0, _⟩ => by show (0 : Nat) = if (1 : Nat) = 1 then 0 else r.val; rw [if_pos rfl]
    | ⟨1, _⟩ => by show (0 : Nat) = if (1 : Nat) = 1 then 0 else q.val; rw [if_pos rfl])).trans ?_
  exact broadcastInDim_apply _ bcast_S1_S1x1_1 b (ix2 (0 : Fin 1) (0 : Fin 1)) (ix1 (0 : Fin 1)) (fun a => match a with
    | ⟨0, _⟩ => by show (0 : Nat) = if (1 : Nat) = 1 then 0 else (0 : Nat); rw [if_pos rfl])

/-- The rectifier's zero, spread over all entries, is the zero word everywhere. -/
theorem zero_apply (i : S100000x64.Idx) :
    broadcastInDim S100000x64 ![] bcast_S_S100000x64 (constant (F := Ideal) S_ .f32 0x00000000#32) i = Ideal.ofBits .f32 0x00000000#32 :=
  (broadcastInDim_apply _ bcast_S_S100000x64 (constant (F := Ideal) S_ .f32 0x00000000#32) i (fun a => a.elim0) (fun a => a.elim0)).trans rfl

/-- The reference's dense layer at `(r, j)`. -/
theorem layerRef_apply (mean x : (⟨S100000x64, .f32⟩ : BufTy).Contents (Elt Ideal)) (Wl : (⟨S64x64, .f32⟩ : BufTy).Contents (Elt Ideal)) (b : (⟨S64, .f32⟩ : BufTy).Contents (Elt Ideal)) (Wr : (⟨S64x64, .f32⟩ : BufTy).Contents (Elt Ideal))
    (r : Fin 100000) (j : Fin 64) :
    layerRef (F := Ideal) mean x Wl b Wr (ix2 r j)
      = denseRow (fun k => mean (ix2 r k)) (fun k => x (ix2 r k)) (fun j k => Wl (ix2 j k)) (fun j k => Wr (ix2 j k)) (fun j => b (ix1 j)) j := by
  unfold layerRef denseRow
  refine (maximumf_apply _ _ _).trans (congrArg₂ max ?_ (zero_apply _))
  refine (addf_apply _ _ _).trans (congrArg₂ (· + ·) ((addf_apply _ _ _).trans (congrArg₂ (· + ·) ?_ (bias64_apply b r j))) ?_)
  · refine (dot64_apply _ _ r j).trans (Finset.sum_congr rfl fun k _ => ?_)
    rw [transpose64_apply]
  · refine (dot64_apply _ _ r j).trans (Finset.sum_congr rfl fun k _ => ?_)
    rw [transpose64_apply]

/-- The reference's scorer at `(r, 0)`. -/
theorem scoreRef_apply (z : (⟨S200000x128, .f32⟩ : BufTy).Contents (Elt Ideal)) (w : (⟨S1x128, .f32⟩ : BufTy).Contents (Elt Ideal)) (bs : (⟨S1, .f32⟩ : BufTy).Contents (Elt Ideal)) (r : Fin 200000) (q : Fin 1) :
    scoreRef (F := Ideal) z w bs (ix2 r q) = scoreRow (fun k => z (ix2 r k)) (fun k => w (ix2 (0 : Fin 1) k)) (bs (ix1 (0 : Fin 1))) := by
  unfold scoreRef scoreRow
  refine (addf_apply _ _ _).trans (congrArg₂ (· + ·) ?_ (bias1_apply bs r q))
  refine (dot128_apply _ _ r q).trans (Finset.sum_congr rfl fun k _ => ?_)
  rw [transpose128_apply]

/-- The bias reshaped to a row, read at `(0, j)`. -/
theorem biasRow_apply (b : (⟨S64, .f32⟩ : BufTy).Contents (Elt Ideal)) (h : S64.ShapeCasts S1x64) (j : Fin 64) :
    shapeCast S1x64 b h (ix2 (0 : Fin 1) j) = b (ix1 j) :=
  shapeCast_apply b h (ix2 (0 : Fin 1) j) (ix1 j)
    (by rewrite [Shape.rowMajor_val_two, Shape.rowMajor_val_one]; show j.val = 0 * 64 + j.val; omega)

/-- The scorer's bias reshaped to `[1, 1]`, read at its one entry. -/
theorem biasOne_apply (b : (⟨S1, .f32⟩ : BufTy).Contents (Elt Ideal)) (h : S1.ShapeCasts S1x1) :
    shapeCast S1x1 b h (ix2 (0 : Fin 1) (0 : Fin 1)) = b (ix1 (0 : Fin 1)) :=
  shapeCast_apply b h (ix2 (0 : Fin 1) (0 : Fin 1)) (ix1 (0 : Fin 1))
    (by rewrite [Shape.rowMajor_val_two, Shape.rowMajor_val_one]; show (0 : Nat) = 0 * 1 + 0; omega)

/-- As whole arrays: the reference's dense layer is `denseArr` with the bias as a row. -/
theorem layerRef_eq (mean x : (⟨S100000x64, .f32⟩ : BufTy).Contents (Elt Ideal)) (Wl : (⟨S64x64, .f32⟩ : BufTy).Contents (Elt Ideal)) (b : (⟨S64, .f32⟩ : BufTy).Contents (Elt Ideal)) (Wr : (⟨S64x64, .f32⟩ : BufTy).Contents (Elt Ideal))
    (h : S64.ShapeCasts S1x64) :
    layerRef (F := Ideal) mean x Wl b Wr = denseArr mean x Wl Wr (shapeCast S1x64 b h) := by
  funext i
  obtain ⟨r, j, rfl⟩ : ∃ (r : Fin 100000) (j : Fin 64), i = ix2 r j := ⟨i 0, i 1, eq_ix2 i⟩
  rw [layerRef_apply]
  unfold denseArr
  exact congrArg (fun bb => denseRow (fun k => mean (ix2 r k)) (fun k => x (ix2 r k)) (fun j k => Wl (ix2 j k)) (fun j k => Wr (ix2 j k)) bb j)
    (funext fun j' => (biasRow_apply b h j').symm)

/-- As whole arrays: the reference's scorer is `scoreArr` with the bias as `[1, 1]`. -/
theorem scoreRef_eq (z : (⟨S200000x128, .f32⟩ : BufTy).Contents (Elt Ideal)) (w : (⟨S1x128, .f32⟩ : BufTy).Contents (Elt Ideal)) (bs : (⟨S1, .f32⟩ : BufTy).Contents (Elt Ideal)) (h : S1.ShapeCasts S1x1) :
    scoreRef (F := Ideal) z w bs = scoreArr z w (shapeCast S1x1 bs h) := by
  funext i
  obtain ⟨r, q, rfl⟩ : ∃ (r : Fin 200000) (q : Fin 1), i = ix2 r q := ⟨i 0, i 1, eq_ix2 i⟩
  rw [scoreRef_apply]
  unfold scoreArr
  exact congrArg (fun bb => scoreRow (fun k => z (ix2 r k)) (fun k => w (ix2 (0 : Fin 1) k)) bb) (biasOne_apply bs h).symm

end Cert.ReferenceIdeal.Layer

end
-- ==== Proof.Bridge.lean ====
/-
  The bridge: the idealized kernel's result and the reference's result are one function of the eleven arguments.

  Reading the run's last boundary back through the three regions and four host stretches gives the kernel's result as
  `kOut`: the scorer (`scoreArr`) of the label pairs' rows of `h2`, where `h1 = denseArr (meanOf x e) x …` and
  `h2 = denseArr (meanOf h1 e) h1 …`, reshaped to a vector. The reference's result is the same composition with
  `layerRef` and `scoreRef` in place of `denseArr` and `scoreArr`, and those are equal as whole arrays: both sides sum
  the same products over the same lanes, add the same bias and take the same maximum with zero. No finiteness is used:
  the equalities hold entry by entry on all extended reals.
-/
import proofs.«117260_j50371376447640_1_alg».proof.Proof.KernelRun
import proofs.«117260_j50371376447640_1_alg».proof.Proof.KernelArrays
import proofs.«117260_j50371376447640_1_alg».proof.Proof.KernelHost
import proofs.«117260_j50371376447640_1_alg».proof.Proof.RefLayer

set_option maxRecDepth 16384

noncomputable section

namespace Cert.Proof.Bridge

open Cert.KernelIdeal Cert.KernelIdeal.Gen Idealize.ShloMosaic Idealize.ShloMosaic.TcCoe Idealize.SL.Sem Cert.Sage

/-- The kernel's result as a function of the arguments: two dense layers over the mean aggregation, the pairs' rows, the
    scorer, the column read as a vector. -/
def kOut (x : (⟨Cert.ReferenceIdeal.S100000x64, .f32⟩ : BufTy).Contents (Elt Ideal)) (e : (⟨Cert.ReferenceIdeal.S2x1600000, .i32⟩ : BufTy).Contents (Elt Ideal)) (l : (⟨Cert.ReferenceIdeal.S2x200000, .i32⟩ : BufTy).Contents (Elt Ideal))
    (Wl1 : (⟨Cert.ReferenceIdeal.S64x64, .f32⟩ : BufTy).Contents (Elt Ideal)) (bl1 : (⟨Cert.ReferenceIdeal.S64, .f32⟩ : BufTy).Contents (Elt Ideal)) (Wr1 Wl2 : (⟨Cert.ReferenceIdeal.S64x64, .f32⟩ : BufTy).Contents (Elt Ideal)) (bl2 : (⟨Cert.ReferenceIdeal.S64, .f32⟩ : BufTy).Contents (Elt Ideal)) (Wr2 : (⟨Cert.ReferenceIdeal.S64x64, .f32⟩ : BufTy).Contents (Elt Ideal))
    (Ws : (⟨Cert.ReferenceIdeal.S1x128, .f32⟩ : BufTy).Contents (Elt Ideal)) (bs : (⟨Cert.ReferenceIdeal.S1, .f32⟩ : BufTy).Contents (Elt Ideal)) : (⟨Cert.ReferenceIdeal.S200000, .f32⟩ : BufTy).Contents (Elt Ideal) :=
  shapeCast S200000 (scoreArr (Cert.ReferenceIdeal.Shape.pairsOf (F := Ideal) (denseArr (Cert.ReferenceIdeal.Shape.meanOf (F := Ideal) (denseArr (Cert.ReferenceIdeal.Shape.meanOf (F := Ideal) x e) x Wl1 Wr1 (shapeCast S1x64 bl1 shapeCasts_S64_S1x64)) e) (denseArr (Cert.ReferenceIdeal.Shape.meanOf (F := Ideal) x e) x Wl1 Wr1 (shapeCast S1x64 bl1 shapeCasts_S64_S1x64)) Wl2 Wr2 (shapeCast S1x64 bl2 shapeCasts_S64_S1x64)) l) Ws (shapeCast S1x1 bs shapeCasts_S1_S1x1)) shapeCasts_S200000x1_S200000

section Kernel

variable (m : (ℓ : Loc nD τ sig) → Buf (Elt Ideal) ℓ) (ρ : Dev nD → PrngReg) (c : Dev nD)

/-- Region 0 leaves the first layer's output. -/
theorem V2_v24 : V2 m ρ c main_v24 = denseArr (Cert.ReferenceIdeal.Shape.meanOf (F := Ideal) (m ((c.tc : Thread nD τ).loc main_arg0)) (m ((c.tc : Thread nD τ).loc main_arg1))) (m ((c.tc : Thread nD τ).loc main_arg0)) (m ((c.tc : Thread nD τ).loc main_arg3)) (m ((c.tc : Thread nD τ).loc main_arg5)) (shapeCast S1x64 (m ((c.tc : Thread nD τ).loc main_arg4)) shapeCasts_S64_S1x64) := by
  show W2 m ρ c (Proc.devRef .tc main_v24) = _
  refine (W2_arr m ρ c 5).trans ?_
  rw [Arrays.final0 (V1 m ρ) c, HostRead.V1_v22, HostRead.V1_arg0, HostRead.V1_arg3, HostRead.V1_arg5, HostRead.V1_v23]

/-- Region 1 leaves the second layer's output, over region 0's. -/
theorem V4_v38 : V4 m ρ c main_v38 = denseArr (Cert.ReferenceIdeal.Shape.meanOf (F := Ideal) (V2 m ρ c main_v24) (m ((c.tc : Thread nD τ).loc main_arg1))) (V2 m ρ c main_v24) (m ((c.tc : Thread nD τ).loc main_arg6)) (m ((c.tc : Thread nD τ).loc main_arg8)) (shapeCast S1x64 (m ((c.tc : Thread nD τ).loc main_arg7)) shapeCasts_S64_S1x64) := by
  show W4 m ρ c (Proc.devRef .tc main_v38) = _
  refine (W4_arr m ρ c 5).trans ?_
  rw [Arrays.final1 (V3 m ρ) c, HostRead.V3_v36, HostRead.V3_v24, HostRead.V3_arg6, HostRead.V3_arg8, HostRead.V3_v37]

/-- Region 2 leaves the scores of the label pairs, over region 1's output. -/
theorem V6_v59 : V6 m ρ c main_v59 = scoreArr (Cert.ReferenceIdeal.Shape.pairsOf (F := Ideal) (V4 m ρ c main_v38) (m ((c.tc : Thread nD τ).loc main_arg2))) (m ((c.tc : Thread nD τ).loc main_arg9)) (shapeCast S1x1 (m ((c.tc : Thread nD τ).loc main_arg10)) shapeCasts_S1_S1x1) := by
  show W6 m ρ c (Proc.devRef .tc main_v59) = _
  refine (W6_arr m ρ c 3).trans ?_
  rw [Arrays.final2 (V5 m ρ) c, HostRead.V5_v57, HostRead.V5_arg9, HostRead.V5_v58]

/-- The run's result buffer, read back to the arguments. -/
theorem kernel_value : W7 m ρ c (Proc.devRef .tc main_v60) = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [HostRead.W7_v60, V6_v59, V4_v38, V2_v24]
  rfl

end Kernel

/-- The reference's composition is the kernel's. -/
theorem ref_value (x : (⟨Cert.ReferenceIdeal.S100000x64, .f32⟩ : BufTy).Contents (Elt Ideal)) (e : (⟨Cert.ReferenceIdeal.S2x1600000, .i32⟩ : BufTy).Contents (Elt Ideal)) (l : (⟨Cert.ReferenceIdeal.S2x200000, .i32⟩ : BufTy).Contents (Elt Ideal))
    (Wl1 : (⟨Cert.ReferenceIdeal.S64x64, .f32⟩ : BufTy).Contents (Elt Ideal)) (bl1 : (⟨Cert.ReferenceIdeal.S64, .f32⟩ : BufTy).Contents (Elt Ideal)) (Wr1 Wl2 : (⟨Cert.ReferenceIdeal.S64x64, .f32⟩ : BufTy).Contents (Elt Ideal)) (bl2 : (⟨Cert.ReferenceIdeal.S64, .f32⟩ : BufTy).Contents (Elt Ideal)) (Wr2 : (⟨Cert.ReferenceIdeal.S64x64, .f32⟩ : BufTy).Contents (Elt Ideal))
    (Ws : (⟨Cert.ReferenceIdeal.S1x128, .f32⟩ : BufTy).Contents (Elt Ideal)) (bs : (⟨Cert.ReferenceIdeal.S1, .f32⟩ : BufTy).Contents (Elt Ideal)) :
    Cert.ReferenceIdeal.Shape.refOut (F := Ideal) x e l Wl1 bl1 Wr1 Wl2 bl2 Wr2 Ws bs = kOut x e l Wl1 bl1 Wr1 Wl2 bl2 Wr2 Ws bs := by
  unfold Cert.ReferenceIdeal.Shape.refOut kOut
  rw [Cert.ReferenceIdeal.Layer.layerRef_eq _ _ _ _ _ shapeCasts_S64_S1x64, Cert.ReferenceIdeal.Layer.layerRef_eq _ _ _ _ _ shapeCasts_S64_S1x64,
    Cert.ReferenceIdeal.Layer.scoreRef_eq _ _ _ shapeCasts_S1_S1x1]

end Cert.Proof.Bridge

end
-- ==== Proof.lean ====
/-
  A two-layer mean-aggregation graph network with a linear link scorer: the tiled kernel against the whole-array reference.

  Both programs compute, for node features `x`, an edge list `e` and label pairs `l`,
  `h1 = relu (mean(x) · Wl1ᵀ + bl1 + x · Wr1ᵀ)`, `h2 = relu (mean(h1) · Wl2ᵀ + bl2 + h1 · Wr2ᵀ)` and the score
  `(h2[s] ‖ h2[d]) · Wsᵀ + bs` of every pair, where `mean` averages a node's incoming neighbours. The gathers and
  scatter-adds that build `mean` and the pair rows run on the host in both; the kernel does the three dense maps as
  pipelined regions over blocks of rows. A row of a dense map's output depends on the same row of its inputs only, so the
  blocks a region writes are the restrictions of one whole-array function, and that function is the reference's: the same
  products summed over the same 64 (or 128) lanes, the same bias, the same maximum with zero. On the extended reals a
  change of float format is the identity, so the kernel's narrowing before each matrix product does not show.

  The frames are the generated ones (the reference's is its generated run with the result dropped); the claim's
  `preserves` conjunct is stated as `True` (its ledger of idealization rewrites is empty), so it is closed by `trivial`; `algebraic` names the common result `Bridge.kOut` of the arguments.
-/
import proofs.«117260_j50371376447640_1_alg».proof.Defs
import proofs.«117260_j50371376447640_1_alg».proof.Proof.Gen.Kernel
import proofs.«117260_j50371376447640_1_alg».proof.Proof.Gen.Kernel.Skeleton
import proofs.«117260_j50371376447640_1_alg».proof.Proof.Gen.Kernel.Launch
import proofs.«117260_j50371376447640_1_alg».proof.Proof.Gen.Kernel.Points
import proofs.«117260_j50371376447640_1_alg».proof.Proof.Gen.Kernel.Frame
import proofs.«117260_j50371376447640_1_alg».proof.Proof.Gen.KernelIdeal
import proofs.«117260_j50371376447640_1_alg».proof.Proof.Gen.KernelIdeal.Skeleton
import proofs.«117260_j50371376447640_1_alg».proof.Proof.Gen.KernelIdeal.Launch
import proofs.«117260_j50371376447640_1_alg».proof.Proof.Gen.KernelIdeal.Points
import proofs.«117260_j50371376447640_1_alg».proof.Proof.Gen.KernelIdeal.Frame
import proofs.«117260_j50371376447640_1_alg».proof.Proof.Gen.ReferenceIdeal
import proofs.«117260_j50371376447640_1_alg».proof.Proof.Gen.ReferenceIdeal.Run
import proofs.«117260_j50371376447640_1_alg».proof.Proof.Gen.ReferenceIdeal.Read
import proofs.«117260_j50371376447640_1_alg».proof.Proof.Gen.Pre_finite_inputs
import proofs.«117260_j50371376447640_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with `Bridge.kOut` of the arguments in their result: the
    kernel by its run read back through its regions, the reference by its run's term, rewritten to the kernel's memory by
    the agreement. -/
theorem algebraic : Cert.algebraic_KernelIdeal_ReferenceIdeal := by
  intro m ρ m' ρ' _ hagree
  refine ⟨fun c => Bridge.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Bridge.kernel_value m ρ c), (h c).2⟩)
      (Cert.KernelIdeal.Run.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Shape.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact Bridge.ref_value _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
